-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512 : Shape := ⟨2, ![32, 512]⟩
abbrev S512x16x16x512 : Shape := ⟨4, ![512, 16, 16, 512]⟩
abbrev S512 : Shape := ⟨1, ![512]⟩
abbrev S512x16x16 : Shape := ⟨3, ![512, 16, 16]⟩
abbrev S_ : Shape := ⟨0, ![]⟩

class Facts : Prop where
  bcast_S_S32x512 : S_.BroadcastsInDim S32x512 (![] : Fin 0 → Fin S32x512.rank)
  reducesTo_S32x512_S_d0_1 : S32x512.ReducesTo [0, 1] S_
  h_S_ : 0 < S_.numel
  bcast_S_S512x16x16x512 : S_.BroadcastsInDim S512x16x16x512 (![] : Fin 0 → Fin S512x16x16x512.rank)
  reducesTo_S512x16x16x512_S_d0_1_2_3 : S512x16x16x512.ReducesTo [0, 1, 2, 3] S_
  bcast_S_S512 : S_.BroadcastsInDim S512 (![] : Fin 0 → Fin S512.rank)
  reducesTo_S512_S_d0 : S512.ReducesTo [0] S_
  bcast_S_S512x16x16 : S_.BroadcastsInDim S512x16x16 (![] : Fin 0 → Fin S512x16x16.rank)
  reducesTo_S512x16x16_S_d0_1_2 : S512x16x16.ReducesTo [0, 1, 2] S_

variable [Facts]

def fn_part1 {F : FTy → Type} [FloatOps F] (main_v13 : IVec S_ 1) (main_v16 : IVec S512x16x16 1) : IVec S_ 1 :=
  let main_c_5 : IVec S_ 1 := constantI S_ 1 1#1
  let main_v17 : IVec S_ 1 := (fun x v => Host.reduce IntOp.andi x v reducesTo_S512x16x16_S_d0_1_2 h_S_) main_v16 main_c_5
  let main_v18 : IVec S_ 1 := andi main_v13 main_v17
  main_v18

def fn {F : FTy → Type} [FloatOps F] (main_arg0 : FVec F S32x512 .f32) (main_arg1 : FVec F S512x16x16x512 .f32) (main_arg2 : FVec F S512 .f32) (main_arg3 : FVec F S512x16x16 .f32) : IVec S_ 1 :=
  let main_v0 : FVec F S32x512 .f32 := Host.absf main_arg0
  let main_cst : FVec F S_ .f32 := constant S_ .f32 0x7F800000#32
  let main_v1 : FVec F S32x512 .f32 := broadcastInDim S32x512 ![] bcast_S_S32x512 main_cst
  let main_v2 : IVec S32x512 1 := cmpf .olt main_v0 main_v1
  let main_c : IVec S_ 1 := constantI S_ 1 1#1
  let main_v3 : IVec S_ 1 := (fun x v => Host.reduce IntOp.andi x v reducesTo_S32x512_S_d0_1 h_S_) main_v2 main_c
  let main_v4 : FVec F S512x16x16x512 .f32 := Host.absf main_arg1
  let main_cst_0 : FVec F S_ .f32 := constant S_ .f32 0x7F800000#32
  let main_v5 : FVec F S512x16x16x512 .f32 := broadcastInDim S512x16x16x512 ![] bcast_S_S512x16x16x512 main_cst_0
  let main_v6 : IVec S512x16x16x512 1 := cmpf .olt main_v4 main_v5
  let main_c_1 : IVec S_ 1 := constantI S_ 1 1#1
  let main_v7 : IVec S_ 1 := (fun x v => Host.reduce IntOp.andi x v reducesTo_S512x16x16x512_S_d0_1_2_3 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x16x16 .f32 := Host.absf main_arg3
  let main_cst_4 : FVec F S_ .f32 := constant S_ .f32 0x7F800000#32
  let main_v15 : FVec F S512x16x16 .f32 := broadcastInDim S512x16x16 ![] bcast_S_S512x16x16 main_cst_4
  let main_v16 : IVec S512x16x16 1 := cmpf .olt main_v14 main_v15
  fn_part1 (F := F) main_v13 main_v16
-- ==== Kernel.lean ====
abbrev S32x512 : Shape := ⟨2, ![32, 512]⟩
abbrev S512x16x16x512 : Shape := ⟨4, ![512, 16, 16, 512]⟩
abbrev S512 : Shape := ⟨1, ![512]⟩
abbrev S512x16x16 : Shape := ⟨3, ![512, 16, 16]⟩
abbrev S_ : Shape := ⟨0, ![]⟩
abbrev S1x512 : Shape := ⟨2, ![1, 512]⟩
abbrev S131072x512 : Shape := ⟨2, ![131072, 512]⟩
abbrev S131072 : Shape := ⟨1, ![131072]⟩
abbrev S32x131072 : Shape := ⟨2, ![32, 131072]⟩
abbrev S4096x512 : Shape := ⟨2, ![4096, 512]⟩
abbrev S4096 : Shape := ⟨1, ![4096]⟩
abbrev S32x4096 : Shape := ⟨2, ![32, 4096]⟩
abbrev S1x4096 : Shape := ⟨2, ![1, 4096]⟩
abbrev S32x512x16x16 : Shape := ⟨4, ![32, 512, 16, 16]⟩

abbrev nBuf : Space → Nat
  | .hbm => 14
  | .vmem => 7
  | .smem => 0
  | _ => 0

abbrev bufTy : (tb : Table) → Fin (tcTables nBuf tb) → BufTy
  | .hbm, ⟨0, _⟩ => ⟨S32x512, .f32⟩
  | .hbm, ⟨1, _⟩ => ⟨S512x16x16x512, .f32⟩
  | .hbm, ⟨2, _⟩ => ⟨S512, .f32⟩
  | .hbm, ⟨3, _⟩ => ⟨S512x16x16, .f32⟩
  | .hbm, ⟨4, _⟩ => ⟨S_, .f32⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S32x512, .f32⟩
  | .hbm, ⟨9, _⟩ => ⟨S32x512, .f32⟩
  | .hbm, ⟨10, _⟩ => ⟨S131072x512, .f32⟩
  | .hbm, ⟨11, _⟩ => ⟨S131072, .f32⟩
  | .hbm, ⟨12, _⟩ => ⟨S32x131072, .f32⟩
  | .hbm, ⟨13, _⟩ => ⟨S32x512x16x16, .f32⟩
  | .local _ .vmem, ⟨0, _⟩ => ⟨S32x512, .f32⟩
  | .local _ .vmem, ⟨1, _⟩ => ⟨S4096x512, .f32⟩
  | .local _ .vmem, ⟨2, _⟩ => ⟨S4096x512, .f32⟩
  | .local _ .vmem, ⟨3, _⟩ => ⟨S4096, .f32⟩
  | .local _ .vmem, ⟨4, _⟩ => ⟨S4096, .f32⟩
  | .local _ .vmem, ⟨5, _⟩ => ⟨S32x4096, .f32⟩
  | .local _ .vmem, ⟨6, _⟩ => ⟨S32x4096, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S512 : S_.BroadcastsInDim S512 (![] : Fin 0 → Fin S512.rank)
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  shapeCasts_S512x16x16x512_S131072x512 : S512x16x16x512.ShapeCasts S131072x512
  shapeCasts_S512x16x16_S131072 : S512x16x16.ShapeCasts S131072
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  shapeCasts_S1x4096_S1x4096 : S1x4096.ShapeCasts S1x4096
  broadcasts_S1x4096_S32x4096 : S1x4096.Broadcasts S32x4096
  inb_S32x4096_S32x4096_0_0 : ∀ a, (![0, 0] : Fin 2 → Nat) a + S32x4096.size a ≤ S32x4096.size a
  h_S32x4096 : 0 < S32x4096.numel
  shapeCasts_S32x131072_S32x512x16x16 : S32x131072.ShapeCasts S32x512x16x16
  dot_S32x512_S4096x512_S32x4096_1_1_0_0_n_n_wf : DotDims.WF S32x512 S4096x512 S32x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S32x512.size a
  hwx0_0 : ∀ i : grid0.Coords, EltTy.bits .f32 = 32 ∨ (Rect.block (s := S32x512) S32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S131072x512.size a
  hwx0_1 : ∀ i : grid0.Coords, EltTy.bits .f32 = 32 ∨ (Rect.block (s := S131072x512) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S131072.size a
  hwx0_2 : ∀ i : grid0.Coords, EltTy.bits .f32 = 32 ∨ (Rect.block (s := S131072) S4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x4096.size a ≤ S32x131072.size a
  hwx0_3 : ∀ i : grid0.Coords, EltTy.bits .f32 = 32 ∨ (Rect.block (s := S32x131072) S32x4096.size (cc0_transform_3 i) (hinb0_3 i)).WholeWords (EltTy.packing .f32)

variable [Facts₀]

def dot_S32x512_S4096x512_S32x4096_1_1_0_0_n_n : DotDims S32x512 S4096x512 S32x4096 where
  lhsContracting := [1]
  rhsContracting := [1]
  lhsNonContracting := [0]
  rhsNonContracting := [0]
  lhsBatch := []
  rhsBatch := []
  wf := dot_S32x512_S4096x512_S32x4096_1_1_0_0_n_n_wf

abbrev win0_0 : Pipeline.Window sig grid0 :=
  Pipeline.Window.ofSpec (Memref.whole main_v4) S32x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S32x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512 : Shape := ⟨2, ![32, 512]⟩
abbrev S512x16x16x512 : Shape := ⟨4, ![512, 16, 16, 512]⟩
abbrev S512 : Shape := ⟨1, ![512]⟩
abbrev S512x16x16 : Shape := ⟨3, ![512, 16, 16]⟩
abbrev S_ : Shape := ⟨0, ![]⟩
abbrev S1x512 : Shape := ⟨2, ![1, 512]⟩
abbrev S32x512x16x16 : Shape := ⟨4, ![32, 512, 16, 16]⟩
abbrev S1x512x16x16 : Shape := ⟨4, ![1, 512, 16, 16]⟩

abbrev nBuf : Space → Nat
  | .hbm => 14
  | .vmem => 0
  | .smem => 0
  | _ => 0

abbrev bufTy : (tb : Table) → Fin (tcTables nBuf tb) → BufTy
  | .hbm, ⟨0, _⟩ => ⟨S32x512, .f32⟩
  | .hbm, ⟨1, _⟩ => ⟨S512x16x16x512, .f32⟩
  | .hbm, ⟨2, _⟩ => ⟨S512, .f32⟩
  | .hbm, ⟨3, _⟩ => ⟨S512x16x16, .f32⟩
  | .hbm, ⟨4, _⟩ => ⟨S_, .f32⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S32x512, .f32⟩
  | .hbm, ⟨9, _⟩ => ⟨S32x512, .f32⟩
  | .hbm, ⟨10, _⟩ => ⟨S32x512x16x16, .f32⟩
  | .hbm, ⟨11, _⟩ => ⟨S1x512x16x16, .f32⟩
  | .hbm, ⟨12, _⟩ => ⟨S32x512x16x16, .f32⟩
  | .hbm, ⟨13, _⟩ => ⟨S32x512x16x16, .f32⟩
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S512x16x16_S1x512x16x16_1_2_3 : S512x16x16.BroadcastsInDim S1x512x16x16 (![1, 2, 3] : Fin 3 → Fin S1x512x16x16.rank)
  bcast_S1x512x16x16_S32x512x16x16_0_1_2_3 : S1x512x16x16.BroadcastsInDim S32x512x16x16 (![0, 1, 2, 3] : Fin 4 → Fin S32x512x16x16.rank)
  dot_S32x512_S512x16x16x512_S32x512x16x16_1_3_0_012_n_n_wf : DotDims.WF S32x512 S512x16x16x512 S32x512x16x16 [1] [3] [0] [0, 1, 2] [] []

variable [Facts₀]

def dot_S32x512_S512x16x16x512_S32x512x16x16_1_3_0_012_n_n : DotDims S32x512 S512x16x16x512 S32x512x16x16 where
  lhsContracting := [1]
  rhsContracting := [3]
  lhsNonContracting := [0]
  rhsNonContracting := [0, 1, 2]
  lhsBatch := []
  rhsBatch := []
  wf := dot_S32x512_S512x16x16x512_S32x512x16x16_1_3_0_012_n_n_wf

class Facts : Prop extends Facts₀ where

variable [Facts]
-- ==== Proof.Projection.lean ====
/-
  The function both programs compute, on arrays of extended reals: a batch of 32 style vectors s (each of
  length 512) is projected on every one of the 512·16·16 basis vectors u(c, r, s, ·) and the mean μ(c, r, s) is
  added:
      out(b, c, r, s) = Σ_k s(b, k) · u(c, r, s, k) + μ(c, r, s).
  `rows` is the same function on the flattened layout, where the basis vectors are the rows of an [M, 512]
  matrix and the means an array of length M.
-/
import Idealize.ShloMosaic.PureOps.Ideal
import Idealize.ShloMosaic.Lib.ValueIdx

noncomputable section

open scoped BigOperators

namespace Cert.Projection

open Idealize.ShloMosaic Idealize.ShloMosaic.ValueIdx

/-- out(b, c, r, s) = Σ_k s(b, k) · u(c, r, s, k) + μ(c, r, s). -/
def proj (s : (⟨2, ![32, 512]⟩ : Shape).Idx → EReal) (u : (⟨4, ![512, 16, 16, 512]⟩ : Shape).Idx → EReal)
    (mu : (⟨3, ![512, 16, 16]⟩ : Shape).Idx → EReal) : (⟨4, ![32, 512, 16, 16]⟩ : Shape).Idx → EReal :=
  fun i => (∑ k : Fin 512, s (ix2 (i 0) k) * u (ix4 (i 1) (i 2) (i 3) k)) + mu (ix3 (i 1) (i 2) (i 3))

theorem proj_apply (s : (⟨2, ![32, 512]⟩ : Shape).Idx → EReal) (u : (⟨4, ![512, 16, 16, 512]⟩ : Shape).Idx → EReal)
    (mu : (⟨3, ![512, 16, 16]⟩ : Shape).Idx → EReal) (b : Fin 32) (c : Fin 512) (r : Fin 16) (t : Fin 16) :
    proj s u mu (ix4 b c r t) = (∑ k : Fin 512, s (ix2 b k) * u (ix4 c r t k)) + mu (ix3 c r t) := rfl

/-- One entry of the flattened form: Σ_k s(p, k) · u(q, k) + μ(q). -/
def entry {M : Nat} (s : (⟨2, ![32, 512]⟩ : Shape).Idx → EReal) (u : (⟨2, ![M, 512]⟩ : Shape).Idx → EReal)
    (mu : (⟨1, ![M]⟩ : Shape).Idx → EReal) (p : Fin 32) (q : Fin M) : EReal :=
  (∑ k : Fin 512, s (ix2 p k) * u (ix2 q k)) + mu (ix1 q)

/-- The flattened form as an array: out(p, q) = Σ_k s(p, k) · u(q, k) + μ(q). -/
def rows {M : Nat} (s : (⟨2, ![32, 512]⟩ : Shape).Idx → EReal) (u : (⟨2, ![M, 512]⟩ : Shape).Idx → EReal)
    (mu : (⟨1, ![M]⟩ : Shape).Idx → EReal) : (⟨2, ![32, M]⟩ : Shape).Idx → EReal :=
  fun j => entry s u mu (j 0) (j 1)

theorem rows_apply {M : Nat} (s : (⟨2, ![32, 512]⟩ : Shape).Idx → EReal) (u : (⟨2, ![M, 512]⟩ : Shape).Idx → EReal)
    (mu : (⟨1, ![M]⟩ : Shape).Idx → EReal) (p : Fin 32) (q : Fin M) : rows s u mu (ix2 p q) = entry s u mu p q := rfl

end Cert.Projection

end
-- ==== Proof.BlockEntry.lean ====
/-
  What the kernel body stores, read at one entry.  The body multiplies the [32, 512] block of scaled styles with
  the transpose of a [4096, 512] block of basis rows (a matrix product contracting the two trailing axes, into a
  zero accumulator) and adds the block of 4096 means laid out as one row and repeated down the 32 rows.  At
  the ideal values the entry (p, q) of what it stores is  Σ_k x(p, k) · w(q, k) + μ(q).
-/
import proofs.«114497_j60309930770489_2_alg».proof.Proof.Gen.KernelIdeal.Skeleton
import proofs.«114497_j60309930770489_2_alg».proof.Proof.Projection
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.BlockEntry

open Cert.KernelIdeal Cert.KernelIdeal.Gen Idealize.ShloMosaic Idealize.ShloMosaic.ValueIdx

/-- The body's dimension numbers: both operands contract their axis 1 and keep their axis 0. -/
abbrev dd : DotDims S32x512 S4096x512 S32x4096 := dot_S32x512_S4096x512_S32x4096_1_1_0_0_n_n

/-- The left operand is read at the output's row. -/
theorem lhs_row (i : S32x4096.Idx) (q : dd.contr.Idx) : (dd.lhsIdx i q 0).val = (i 0).val := by
  unfold DotDims.lhsIdx
  rw [dif_neg (show ¬(0 : Fin S32x512.rank) ∈ dd.lhsBatch by decide), dif_pos (show (0 : Fin S32x512.rank) ∈ dd.lhsNonContracting by decide)]
  rfl
/-- and at the contraction position; -/
theorem lhs_contr (i : S32x4096.Idx) (q : dd.contr.Idx) : (dd.lhsIdx i q 1).val = (q ⟨0, by decide⟩).val :=
  dd.lhsIdx_val_of_single rfl i q
/-- the right operand at the output's column -/
theorem rhs_row (i : S32x4096.Idx) (q : dd.contr.Idx) : (dd.rhsIdx i q 0).val = (i 1).val := by
  unfold DotDims.rhsIdx
  rw [dif_neg (show ¬(0 : Fin S4096x512.rank) ∈ dd.rhsBatch by decide), dif_pos (show (0 : Fin S4096x512.rank) ∈ dd.rhsNonContracting by decide)]
  rfl
/-- and at the contraction position. -/
theorem rhs_contr (i : S32x4096.Idx) (q : dd.contr.Idx) : (dd.rhsIdx i q 1).val = (q ⟨0, by decide⟩).val :=
  dd.rhsIdx_val_of_single rfl i q

/-- The body's matrix product into the zero accumulator, at (p, q): the sum over k of x(p, k) · w(q, k). -/
theorem product_entry (x : FVec Ideal S32x512 .f32) (w : FVec Ideal S4096x512 .f32) (p : Fin 32) (q : Fin 4096) :
    matmul dd none x w (constant S32x4096 .f32 0x00000000#32) (ix2 p q) = ∑ k : Fin 512, x (ix2 p k) * w (ix2 q k) := by
  simp only [matmul]
  rw [Ideal.matmul_constant_zero_apply, ← Equiv.sum_comp (contrEquiv1 dd 512 rfl rfl).symm]
  refine Finset.sum_congr rfl fun k _ => ?_
  have hk := contrEquiv1_symm_val dd 512 rfl rfl k
  have el : dd.lhsIdx (ix2 p q) ((contrEquiv1 dd 512 rfl rfl).symm k) = ix2 p k := funext fun a => Fin.ext (by
    match a with
    | ⟨0, _⟩ => exact lhs_row _ _
    | ⟨1, _⟩ => exact (lhs_contr _ _).trans hk)
  have er : dd.rhsIdx (ix2 p q) ((contrEquiv1 dd 512 rfl rfl).symm k) = ix2 q k := funext fun a => Fin.ext (by
    match a with
    | ⟨0, _⟩ => exact rhs_row _ _
    | ⟨1, _⟩ => exact (rhs_contr _ _).trans hk)
  rw [el, er]

/-- The block of means laid out as one row and repeated down the rows holds, at (p, q), the mean q. -/
theorem means_entry (v : FVec Ideal S4096 .f32) (p : Fin 32) (q : Fin 4096) :
    broadcastTo S32x4096 (shapeCast S1x4096 v shapeCasts_S4096_S1x4096) broadcasts_S1x4096_S32x4096 (ix2 p q) = v (ix1 q) :=
  (broadcastTo_1b_ab_apply _ broadcasts_S1x4096_S32x4096 p q).trans (shapeCast_a_1a_apply v shapeCasts_S4096_S1x4096 0 q)

/-- What the body stores, at (p, q). -/
theorem stored_entry (x0 : Vec Ideal S32x512 .f32) (x1 : Vec Ideal S4096x512 .f32) (x2 : Vec Ideal S4096 .f32) (p : Fin 32) (q : Fin 4096) :
    k0_pay1 x0 x1 x2 (ix2 p q) = Cert.Projection.entry x0 x1 x2 p q := by
  unfold k0_pay1
  simp only [shapeCast_self]
  exact congrArg₂ (· + ·) (product_entry x0 x1 p q) (means_entry x2 p q)

end Cert.KernelIdeal.BlockEntry

end
-- ==== Proof.Flatten.lean ====
/-
  The three row-major re-layouts between the four-axis arrays and their flattened forms, read at an index.
  Flattening the leading three axes [512, 16, 16] into one axis of 131072 sends (c, r, s) to
  (c·16 + r)·16 + s; a trailing axis is carried along unchanged.
-/
import Idealize.ShloMosaic.Lib.ValueIdx
import Idealize.ShloMosaic.Lib.Pipeline.Value

namespace Cert.Flatten

open Idealize.ShloMosaic Idealize.ShloMosaic.ValueIdx

variable {α : Type}

/-- The flat position of (c, r, s) among the 512·16·16 rows. -/
def row (c : Fin 512) (r : Fin 16) (s : Fin 16) : Fin 131072 :=
  ⟨(c.val * 16 + r.val) * 16 + s.val, by have := c.isLt; have := r.isLt; have := s.isLt; omega⟩

theorem row_val (c : Fin 512) (r : Fin 16) (s : Fin 16) : (row c r s).val = (c.val * 16 + r.val) * 16 + s.val := rfl

/-- A [512, 16, 16, 512] array flattened to [131072, 512] holds, at (row c r s, k), the entry (c, r, s, k). -/
theorem rows_apply (x : (⟨4, ![512, 16, 16, 512]⟩ : Shape).Idx → α)
    (h : (⟨4, ![512, 16, 16, 512]⟩ : Shape).ShapeCasts ⟨2, ![131072, 512]⟩) (c : Fin 512) (r : Fin 16) (s : Fin 16) (k : Fin 512) :
    shapeCast ⟨2, ![131072, 512]⟩ x h (ix2 (row c r s) k) = x (ix4 c r s k) :=
  shapeCast_apply x h _ _ (by
    rw [Shape.rowMajor_val_two, Shape.rowMajor_val_four]
    rfl)

/-- A [512, 16, 16] array flattened to [131072] holds, at row c r s, the entry (c, r, s). -/
theorem vec_apply (x : (⟨3, ![512, 16, 16]⟩ : Shape).Idx → α)
    (h : (⟨3, ![512, 16, 16]⟩ : Shape).ShapeCasts ⟨1, ![131072]⟩) (c : Fin 512) (r : Fin 16) (s : Fin 16) :
    shapeCast ⟨1, ![131072]⟩ x h (ix1 (row c r s)) = x (ix3 c r s) :=
  shapeCast_apply x h _ _ (by
    rw [Shape.rowMajor_val_one, Shape.rowMajor_val_three]
    rfl)

/-- A [32, 131072] array unflattened to [32, 512, 16, 16] holds, at (b, c, r, s), the entry (b, row c r s). -/
theorem unflat_apply (y : (⟨2, ![32, 131072]⟩ : Shape).Idx → α)
    (h : (⟨2, ![32, 131072]⟩ : Shape).ShapeCasts ⟨4, ![32, 512, 16, 16]⟩) (b : Fin 32) (c : Fin 512) (r : Fin 16) (s : Fin 16) :
    shapeCast ⟨4, ![32, 512, 16, 16]⟩ y h (ix4 b c r s) = y (ix2 b (row c r s)) :=
  shapeCast_apply y h _ _ (by
    rw [Shape.rowMajor_val_two, Shape.rowMajor_val_four]
    show b.val * 131072 + ((c.val * 16 + r.val) * 16 + s.val) = ((b.val * 512 + c.val) * 16 + r.val) * 16 + s.val
    omega)

end Cert.Flatten
-- ==== Proof.KernelValue.lean ====
/-
  The kernel's result array.  Grid point t multiplies the scaled styles with rows 4096·t … 4096·t + 4095 of the
  flattened basis and adds those rows' means, and writes the [32, 4096] block it gets to columns
  4096·t … 4096·t + 4095 of the flat [32, 131072] result; the 32 points' blocks tile that array, so it ends holding
  Σ_k s(p, k) · u(q, k) + μ(q) at every (p, q).  The flat result is then re-laid as [32, 512, 16, 16], and the flat
  basis and means are the re-laid arguments: entry (b, c, r, s) is the projection of style b on basis vector
  (c, r, s) plus its mean.
-/
import proofs.«114497_j60309930770489_2_alg».proof.Proof.Gen.KernelIdeal.Frame
import proofs.«114497_j60309930770489_2_alg».proof.Proof.BlockEntry
import proofs.«114497_j60309930770489_2_alg».proof.Proof.Flatten
import proofs.«114497_j60309930770489_2_alg».proof.Proof.Projection
import Idealize.ShloMosaic.Lib.Pipeline.Value
import Idealize.ShloMosaic.Lib.StableHlo.Run
import Idealize.ShloMosaic.Lib.Tactic

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The flat result: Σ_k s(p, k) · u(q, k) + μ(q) of the scaled styles, the flattened basis and the flattened
    means as the region finds them. -/
abbrev flat (c : Dev nD) : S32x131072.Idx → EReal :=
  Cert.Projection.rows (V m c main_v4) (V m c main_v5) (V m c main_v6)

/-- Where each window's block sits at grid point t: the styles' block is the whole array; the basis' block
    is the t-th group of rows; the means' block the t-th group of entries; the result's block the t-th group
    of columns. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 1) = t.val
    ∧ win0_3.index t (0 : Fin 2) = 0 ∧ win0_3.index t (1 : Fin 2) = t.val :=
  (by decide +kernel : ∀ t : Fin grid0.N, _)

/-- The styles' block at any point is the scaled styles. -/
theorem styles_block (c : Dev nD) (t : Fin cfg0.N) (p : Fin 32) (k : Fin 512) :
    (iblk m c 0 t : Vec Ideal S32x512 .f32) (ix2 p k) = (V m c main_v4 : S32x512.Idx → EReal) (ix2 p k) := by
  obtain ⟨e00, e01, e10, e11, e20, e30, e31⟩ := idx_facts t
  show V m c main_v4 (((cfg0.win 0).blk t).view.emb (ix2 p k)) = V m c main_v4 (ix2 p k)
  refine congrArg (V m c main_v4) (funext fun a => Fin.ext ?_)
  match a with
  | ⟨0, _⟩ => show win0_0.index t (0 : Fin 2) * 32 + 1 * p.val = p.val; omega
  | ⟨1, _⟩ => show win0_0.index t (1 : Fin 2) * 512 + 1 * k.val = k.val; omega

/-- Row q of the basis' block at point t is row 4096·t + q of the flattened basis. -/
theorem basis_block (c : Dev nD) (t : Fin cfg0.N) (q : Fin 4096) (k : Fin 512) (Q : Fin 131072) (hQ : Q.val = t.val * 4096 + q.val) :
    (iblk m c 1 t : Vec Ideal S4096x512 .f32) (ix2 q k) = (V m c main_v5 : S131072x512.Idx → EReal) (ix2 Q k) := by
  obtain ⟨e00, e01, e10, e11, e20, e30, e31⟩ := idx_facts t
  show V m c main_v5 (((cfg0.win 1).blk t).view.emb (ix2 q k)) = V m c main_v5 (ix2 Q k)
  refine congrArg (V m c main_v5) (funext fun a => Fin.ext ?_)
  match a with
  | ⟨0, _⟩ => show win0_1.index t (0 : Fin 2) * 4096 + 1 * q.val = Q.val; omega
  | ⟨1, _⟩ => show win0_1.index t (1 : Fin 2) * 512 + 1 * k.val = k.val; omega

/-- Entry q of the means' block at point t is entry 4096·t + q of the flattened means. -/
theorem means_block (c : Dev nD) (t : Fin cfg0.N) (q : Fin 4096) (Q : Fin 131072) (hQ : Q.val = t.val * 4096 + q.val) :
    (iblk m c 2 t : Vec Ideal S4096 .f32) (ix1 q) = (V m c main_v6 : S131072.Idx → EReal) (ix1 Q) := by
  obtain ⟨e00, e01, e10, e11, e20, e30, e31⟩ := idx_facts t
  show V m c main_v6 (((cfg0.win 2).blk t).view.emb (ix1 q)) = V m c main_v6 (ix1 Q)
  refine congrArg (V m c main_v6) (funext fun a => Fin.ext ?_)
  match a with
  | ⟨0, _⟩ => show win0_2.index t (0 : Fin 1) * 4096 + 1 * q.val = Q.val; omega

/-- What the body stores from blocks that are the b-th groups of rows of arrays s, u, μ is, at y, the flat result
    of s, u, μ at row y₀ and column 4096·b + y₁. -/
theorem stored_eq_rows (s : S32x512.Idx → EReal) (u : S131072x512.Idx → EReal) (mu : S131072.Idx → EReal)
    (x0 : Vec Ideal S32x512 .f32) (x1 : Vec Ideal S4096x512 .f32) (x2 : Vec Ideal S4096 .f32) (b : Nat)
    (h0 : ∀ (p : Fin 32) (k : Fin 512), x0 (ix2 p k) = s (ix2 p k))
    (h1 : ∀ (q : Fin 4096) (k : Fin 512) (Q : Fin 131072), Q.val = b * 4096 + q.val → x1 (ix2 q k) = u (ix2 Q k))
    (h2 : ∀ (q : Fin 4096) (Q : Fin 131072), Q.val = b * 4096 + q.val → x2 (ix1 q) = mu (ix1 Q))
    (y : S32x4096.Idx) (i : S32x131072.Idx) (hi0 : (i 0).val = (y 0).val) (hi1 : (i 1).val = b * 4096 + (y 1).val) :
    k0_pay1 x0 x1 x2 y = Cert.Projection.rows s u mu i := by
  obtain ⟨p, q, rfl⟩ : ∃ (p : Fin 32) (q : Fin 4096), y = ix2 p q := ⟨y 0, y 1, eq_ix2 y⟩
  obtain ⟨P, Q, rfl⟩ : ∃ (P : Fin 32) (Q : Fin 131072), i = ix2 P Q := ⟨i 0, i 1, eq_ix2 i⟩
  obtain rfl : P = p := Fin.ext hi0
  rw [Cert.KernelIdeal.BlockEntry.stored_entry, Cert.Projection.rows_apply]
  unfold Cert.Projection.entry
  rw [h2 q Q hi1]
  refine congrArg (· + mu (ix1 Q)) (Finset.sum_congr rfl fun k _ => ?_)
  rw [h0, h1 q k Q hi1]

/-- WHAT POINT t WRITES BACK is block t of the flat result. -/
theorem flushed_eq (c : Dev nD) (t : Fin cfg0.N) :
    (dats m 0 c).flushed 3 t = ((cfg0.win 3).blk t).view.read (Elt Ideal) (flat m c) := by
  show (cfg0.win 3).cut (grid0.coords t) ((dats m 0 c).after 3 t) = _
  rw [after0_3]
  unfold out0_3
  rw [View.canon_unit_zero hz2]
  simp only [View.ld_unit_zero (S := S32x512) hz2, View.ld_unit_zero (S := S4096x512) hz2, View.ld_unit_zero (S := S4096) hz1]
  obtain ⟨e00, e01, e10, e11, e20, e30, e31⟩ := idx_facts t
  funext j
  show k0_pay1 (iblk m c 0 t) (iblk m c 1 t) (iblk m c 2 t) j
    = Cert.Projection.rows (V m c main_v4) (V m c main_v5) (V m c main_v6) (((cfg0.win 3).blk t).view.emb j)
  refine stored_eq_rows (V m c main_v4) (V m c main_v5) (V m c main_v6) (iblk m c 0 t) (iblk m c 1 t) (iblk m c 2 t) t.val
    (styles_block m c t) (basis_block m c t) (means_block m c t) j (((cfg0.win 3).blk t).view.emb j) ?_ ?_
  · show win0_3.index t (0 : Fin 2) * 32 + 1 * (j 0).val = (j 0).val; omega
  · show win0_3.index t (1 : Fin 2) * 4096 + 1 * (j 1).val = t.val * 4096 + (j 1).val; omega

/-- An index of the flat result is in point t's block iff each coordinate is in the block's range on its axis. -/
theorem mem_blk (t : Fin cfg0.N) (i : S32x131072.Idx) :
    i ∈ ((cfg0.win 3).blk t).view.set ↔ ∀ a : Fin 2, win0_3.index t a * S32x4096.size a ≤ (i a).val ∧ (i a).val < win0_3.index t a * S32x4096.size a + S32x4096.size a := by
  show i ∈ ((View.whole main_v7).slice (win0_3.rect t)).set ↔ _
  rw [View.set_slice_whole, Rect.mem_set_unit]
  exact Iff.rfl

/-- Column q of the flat result is written by point q / 4096. -/
theorem cover (i : S32x131072.Idx) : ∃ t : Fin cfg0.N, (cfg0.win 3).flush t = true ∧ i ∈ ((cfg0.win 3).blk t).view.set := by
  have hi0 : (i 0).val < 32 := (i 0).isLt
  have hi1 : (i 1).val < 131072 := (i 1).isLt
  have hN : cfg0.N = 32 := N_0
  obtain ⟨t, ht⟩ : ∃ t : Fin cfg0.N, t.val = (i 1).val / 4096 := ⟨⟨(i 1).val / 4096, by rw [hN]; omega⟩, rfl⟩
  refine ⟨t, flush0_3 t, ?_⟩
  rw [mem_blk]
  obtain ⟨e00, e01, e10, e11, e20, e30, e31⟩ := idx_facts t
  intro a
  match a with
  | ⟨0, _⟩ => show win0_3.index t (0 : Fin 2) * 32 ≤ (i 0).val ∧ (i 0).val < win0_3.index t (0 : Fin 2) * 32 + 32; omega
  | ⟨1, _⟩ => show win0_3.index t (1 : Fin 2) * 4096 ≤ (i 1).val ∧ (i 1).val < win0_3.index t (1 : Fin 2) * 4096 + 4096; omega

/-- THE FLAT RESULT after the region. -/
theorem flat_final (c : Dev nD) : (dats m 0 c).arrAt 3 cfg0.N = flat m c :=
  (dats m 0 c).arrAt_eq_of_cover 3 (flat m c) (fun t _ => flushed_eq m c t) cover

/-- The region finds the basis flattened, -/
theorem basis_flat (c : Dev nD) : (V m c main_v5 : S131072x512.Idx → EReal)
    = shapeCast S131072x512 (m ((c : Thread nD τ).loc main_arg1)) shapeCasts_S512x16x16x512_S131072x512 := by
  show StableHlo.after hostOps0 (fun b => m (c, b)) (Proc.devRef .tc main_v5) = _
  after_results
  rfl

/-- the means flattened, -/
theorem means_flat (c : Dev nD) : (V m c main_v6 : S131072.Idx → EReal)
    = shapeCast S131072 (m ((c : Thread nD τ).loc main_arg3)) shapeCasts_S512x16x16_S131072 := by
  show StableHlo.after hostOps0 (fun b => m (c, b)) (Proc.devRef .tc main_v6) = _
  after_results
  rfl

/-- and the styles scaled entry by entry by the scale vector (times the constant one), repeated down the batch. -/
theorem styles_scaled (c : Dev nD) : (V m c main_v4 : S32x512.Idx → EReal)
    = mulf (m ((c : Thread nD τ).loc main_arg0)) (broadcastInDim S32x512 ![0, 1] bcast_S1x512_S32x512_0_1 (broadcastInDim S1x512 ![1] bcast_S512_S1x512_1 (mulf (m ((c : Thread nD τ).loc main_arg2)) (broadcastInDim S512 ![] bcast_S_S512 (constant (F := Ideal) S_ .f32 0x3F800000#32))))) := by
  show StableHlo.after hostOps0 (fun b => m (c, b)) (Proc.devRef .tc main_v4) = _
  after_results

/-- The program's result is the flat result re-laid as [32, 512, 16, 16]. -/
theorem result_relaid (c : Dev nD) : Pipeline.afterTail₀ cfgs (dats m) 0 (V0 m) [hostOps1] c main_v8
    = shapeCast S32x512x16x16 ((dats m 0 c).arrAt 3 cfg0.N) shapeCasts_S32x131072_S32x512x16x16 := by
  unfold Pipeline.afterTail₀
  show StableHlo.after hostOps1 _ (Proc.devRef .tc main_v8) = _
  after_results
  exact congrArg (fun a => shapeCast S32x512x16x16 a shapeCasts_S32x131072_S32x512x16x16)
    (Pipeline.withArrays_arr spec0 launch0.win.arr_inj c (V0 m c) (fun w => (dats m 0 c).arrAt w cfg0.N) 3)

/-- THE RESULT: entry (b, c, r, s) is the projection of scaled style b on basis vector (c, r, s) plus its mean. -/
theorem result_eq (c : Dev nD) : Pipeline.afterTail₀ cfgs (dats m) 0 (V0 m) [hostOps1] c main_v8
    = Cert.Projection.proj (V m c main_v4) (m ((c : Thread nD τ).loc main_arg1)) (m ((c : Thread nD τ).loc main_arg3)) := by
  rw [result_relaid, flat_final]
  funext i
  obtain ⟨b, ch, r, s, rfl⟩ : ∃ (b : Fin 32) (ch : Fin 512) (r : Fin 16) (s : Fin 16), i = ix4 b ch r s :=
    ⟨i 0, i 1, i 2, i 3, eq_ix4 i⟩
  rw [Cert.Flatten.unflat_apply, Cert.Projection.proj_apply]
  show Cert.Projection.entry (V m c main_v4) (V m c main_v5) (V m c main_v6) b (Cert.Flatten.row ch r s) = _
  unfold Cert.Projection.entry
  rw [basis_flat, means_flat, Cert.Flatten.vec_apply]
  refine congrArg (· + _) (Finset.sum_congr rfl fun k _ => ?_)
  rw [Cert.Flatten.rows_apply]

/-- The run, read: every weakly fair execution terminates with the result array at the projection of the scaled
    styles on the basis plus the means, and the arguments unchanged. -/
theorem run : θ_run defs (onTc (τ := τ) (main (F := Ideal))) ⟨m, fun _ => 0, ρ⟩ fun r => ∀ c : Dev nD,
      r.2.mem ((c.tc : Thread nD τ).loc main_v8)
        = Cert.Projection.proj (mulf (m ((c : Thread nD τ).loc main_arg0)) (broadcastInDim S32x512 ![0, 1] bcast_S1x512_S32x512_0_1 (broadcastInDim S1x512 ![1] bcast_S512_S1x512_1 (mulf (m ((c : Thread nD τ).loc main_arg2)) (broadcastInDim S512 ![] bcast_S_S512 (constant (F := Ideal) S_ .f32 0x3F800000#32))))))
            (m ((c : Thread nD τ).loc main_arg1)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(((h c).2 main_v8 (Pipeline.mem_restRefs_of main_v8 (by decide) (by decide))).trans (result_eq m c)).trans
          (congrArg (fun s => Cert.Projection.proj s (m ((c : Thread nD τ).loc main_arg1)) (m ((c : Thread nD τ).loc main_arg3))) (styles_scaled m c)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c)⟩)
    (run_main m ρ)

end Cert.KernelIdeal.KernelValue

end
-- ==== Proof.RefValue.lean ====
/-
  The reference's result is the projection.  Its contraction over the basis vectors' last axis reads the
  scaled style at (b, k) and the basis at (c, r, s, k); the means are broadcast along the batch axis.
-/
import proofs.«114497_j60309930770489_2_alg».proof.Proof.Gen.ReferenceIdeal.Read
import proofs.«114497_j60309930770489_2_alg».proof.Proof.Projection

noncomputable section

open scoped BigOperators

namespace Cert.ReferenceIdeal.RefValue

open Cert.ReferenceIdeal Cert.ReferenceIdeal.Read Idealize.ShloMosaic Idealize.ShloMosaic.ValueIdx

/-- The reference's result array, as a function of its arguments, is the projection of the scaled styles. -/
theorem result_eq (x0 : (⟨S32x512, .f32⟩ : BufTy).Contents (Elt Ideal)) (x1 : (⟨S512x16x16x512, .f32⟩ : BufTy).Contents (Elt Ideal))
    (x2 : (⟨S512, .f32⟩ : BufTy).Contents (Elt Ideal)) (x3 : (⟨S512x16x16, .f32⟩ : BufTy).Contents (Elt Ideal)) :
    val_main_v8 (F := Ideal) x0 x1 x2 x3 = Cert.Projection.proj (val_main_v4 (F := Ideal) x0 x2) x1 x3 := by
  funext i
  have el : ∀ k : Fin 512, lidx_main_v5 i k = ix2 (i 0) k := fun k => funext fun a => Fin.ext (by
    match a with
    | ⟨0, _⟩ => rfl
    | ⟨1, _⟩ => rfl)
  have er : ∀ k : Fin 512, ridx_main_v5 i k = ix4 (i 1) (i 2) (i 3) k := fun k => funext fun a => Fin.ext (by
    match a with
    | ⟨0, _⟩ => rfl
    | ⟨1, _⟩ => rfl
    | ⟨2, _⟩ => rfl
    | ⟨3, _⟩ => rfl)
  have em : idx_main_v6 (idx_main_v7 i) = ix3 (i 1) (i 2) (i 3) := funext fun a => Fin.ext (by
    match a with
    | ⟨0, _⟩ => rfl
    | ⟨1, _⟩ => rfl
    | ⟨2, _⟩ => rfl)
  rw [val_main_v8_apply, val_main_v5_apply, val_main_v7_apply, val_main_v6_apply, em]
  simp only [el, er]
  rfl

end Cert.ReferenceIdeal.RefValue

end
-- ==== Proof.lean ====
/-
  The kernel against its reference, on the extended reals.

  Both programs first scale the styles: s(b, k) = style(b, k) · (L(k) · 1), the same host operations in both.
  The reference contracts s with the basis over the basis' last axis and adds the means broadcast along the
  batch:  out(b, c, r, s) = Σ_k s(b, k) · U(c, r, s, k) + μ(c, r, s).
  The kernel's program flattens the basis to 131072 rows and the means to 131072 entries, computes
  Σ_k s(b, k) · U_flat(q, k) + μ_flat(q) block by block over 32 groups of 4096 rows (a matrix product into a
  zero accumulator plus the means repeated down the batch), and re-lays the flat [32, 131072] result as
  [32, 512, 16, 16].  Row-major flattening sends (c, r, s) to q = (c·16 + r)·16 + s on all three arrays, so the
  two results are the same sums of the same products: no law of the extended reals beyond reading both sides
  at an index is needed, and finiteness of the inputs is never used.

  The kernel's value is in KernelValue.lean (over BlockEntry.lean, Flatten.lean, Projection.lean), the
  reference's in RefValue.lean; the frames of the two kernel programs and the reference's run are the
  generated ones.  No operation was rewritten by the idealization, so there is nothing to preserve.
-/
import proofs.«114497_j60309930770489_2_alg».proof.Defs
import proofs.«114497_j60309930770489_2_alg».proof.Proof.Gen.Kernel
import proofs.«114497_j60309930770489_2_alg».proof.Proof.Gen.Kernel.Skeleton
import proofs.«114497_j60309930770489_2_alg».proof.Proof.Gen.Kernel.Launch
import proofs.«114497_j60309930770489_2_alg».proof.Proof.Gen.Kernel.Points
import proofs.«114497_j60309930770489_2_alg».proof.Proof.Gen.Kernel.Frame
import proofs.«114497_j60309930770489_2_alg».proof.Proof.Gen.KernelIdeal
import proofs.«114497_j60309930770489_2_alg».proof.Proof.Gen.KernelIdeal.Skeleton
import proofs.«114497_j60309930770489_2_alg».proof.Proof.Gen.KernelIdeal.Launch
import proofs.«114497_j60309930770489_2_alg».proof.Proof.Gen.KernelIdeal.Points
import proofs.«114497_j60309930770489_2_alg».proof.Proof.Gen.KernelIdeal.Frame
import proofs.«114497_j60309930770489_2_alg».proof.Proof.Gen.ReferenceIdeal
import proofs.«114497_j60309930770489_2_alg».proof.Proof.Gen.Pre_finite_inputs
import proofs.«114497_j60309930770489_2_alg».proof.Proof.Gen.ReferenceIdeal.Run
import proofs.«114497_j60309930770489_2_alg».proof.Proof.Gen.ReferenceIdeal.Read
import proofs.«114497_j60309930770489_2_alg».proof.Proof.Projection
import proofs.«114497_j60309930770489_2_alg».proof.Proof.KernelValue
import proofs.«114497_j60309930770489_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both result arrays are the projection of the scaled styles on the basis plus the means: the kernel's by
    the blocks' tiling of the flat result and the row-major re-layouts, the reference's by reading its
    contraction and broadcasts at an index; the scaled styles are one term in both programs. -/
theorem algebraic : Cert.algebraic_KernelIdeal_ReferenceIdeal := by
  intro m ρ m' ρ' _ hagree
  refine ⟨fun c => Cert.Projection.proj
      (Cert.ReferenceIdeal.Read.val_main_v4 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩)
      (Cert.KernelIdeal.KernelValue.run m ρ)
    rfl
  · refine (θ_run Cert.ReferenceIdeal.defs _ _).mono (fun _ h c => ⟨?_, (h c).2⟩)
      (Cert.ReferenceIdeal.Value.run (F := Ideal) m' ρ')
    rw [(h c).1, Cert.ReferenceIdeal.Read.val_main_v8_eq, Cert.ReferenceIdeal.RefValue.result_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
